-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S256 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩
abbrev S11008x4096x1 : Shape := ⟨3, ![11008, 4096, 1]⟩
abbrev S8192x4096 : Shape := ⟨2, ![8192, 4096]⟩
abbrev S1x11008 : Shape := ⟨2, ![1, 11008]⟩
abbrev S8192x11008 : Shape := ⟨2, ![8192, 11008]⟩
abbrev S512x512 : Shape := ⟨2, ![512, 512]⟩
abbrev S5504x512 : Shape := ⟨2, ![5504, 512]⟩
abbrev S1x5504 : Shape := ⟨2, ![1, 5504]⟩
abbrev S512x5504 : Shape := ⟨2, ![512, 5504]⟩
abbrev S4x2048x11008 : Shape := ⟨3, ![4, 2048, 11008]⟩

abbrev nBuf : Space → Nat
  | .hbm => 18
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S256, .f32⟩
  | .hbm, ⟨3, _⟩ => ⟨S11008, .f32⟩
  | .hbm, ⟨4, _⟩ => ⟨S256, .bf16⟩
  | .hbm, ⟨5, _⟩ => ⟨S_, .i32⟩
  | .hbm, ⟨6, _⟩ => ⟨S11008x4096, .i32⟩
  | .hbm, ⟨7, _⟩ => ⟨S11008x4096, .i1⟩
  | .hbm, ⟨8, _⟩ => ⟨S_, .i32⟩
  | .hbm, ⟨9, _⟩ => ⟨S11008x4096, .i32⟩
  | .hbm, ⟨10, _⟩ => ⟨S11008x4096, .i32⟩
  | .hbm, ⟨11, _⟩ => ⟨S11008x4096, .i32⟩
  | .hbm, ⟨12, _⟩ => ⟨S11008x4096x1, .i32⟩
  | .hbm, ⟨13, _⟩ => ⟨S11008x4096, .bf16⟩
  | .hbm, ⟨14, _⟩ => ⟨S8192x4096, .f32⟩
  | .hbm, ⟨15, _⟩ => ⟨S1x11008, .f32⟩
  | .hbm, ⟨16, _⟩ => ⟨S8192x11008, .f32⟩
  | .hbm, ⟨17, _⟩ => ⟨S4x2048x11008, .f32⟩
  | .local _ .vmem, ⟨0, _⟩ => ⟨S512x512, .f32⟩
  | .local _ .vmem, ⟨1, _⟩ => ⟨S512x512, .f32⟩
  | .local _ .vmem, ⟨2, _⟩ => ⟨S5504x512, .bf16⟩
  | .local _ .vmem, ⟨3, _⟩ => ⟨S5504x512, .bf16⟩
  | .local _ .vmem, ⟨4, _⟩ => ⟨S1x5504, .f32⟩
  | .local _ .vmem, ⟨5, _⟩ => ⟨S1x5504, .f32⟩
  | .local _ .vmem, ⟨6, _⟩ => ⟨S512x5504, .f32⟩
  | .local _ .vmem, ⟨7, _⟩ => ⟨S512x5504, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S4x2048x4096_S8192x4096 : S4x2048x4096.ShapeCasts S8192x4096
  shapeCasts_S11008_S1x11008 : S11008.ShapeCasts S1x11008
  inb_S512x5504_S512x5504_0_0 : ∀ a, (![0, 0] : Fin 2 → Nat) a + S512x5504.size a ≤ S512x5504.size a
  h_S512x5504 : 0 < S512x5504.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x5504_S512x5504 : S512x5504.ShapeCasts S512x5504
  inb_S5504x512_S5504x512_0_0 : ∀ a, (![0, 0] : Fin 2 → Nat) a + S5504x512.size a ≤ S5504x512.size a
  h_S5504x512 : 0 < S5504x512.numel
  shapeCasts_S5504x512_S5504x512 : S5504x512.ShapeCasts S5504x512
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S512x5504 : S1x5504.Broadcasts S512x5504
  shapeCasts_S8192x11008_S4x2048x11008 : S8192x11008.ShapeCasts S4x2048x11008
  gather_S256_S11008x4096x1_S11008x4096_n_0_n_n_0_2_1_wf : GatherDims.WF S256 S11008x4096x1 S11008x4096 [] [0] [] [0] [] 2 ![1]
  dot_S512x512_S5504x512_S512x5504_1_1_0_0_n_n_wf : DotDims.WF S512x512 S5504x512 S512x5504 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5504x512.size a ≤ S11008x4096.size a
  hwx0_1 : ∀ i : grid0.Coords, EltTy.bits .bf16 = 32 ∨ (Rect.block (s := S11008x4096) S5504x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x5504.size a ≤ S8192x11008.size a
  hwx0_3 : ∀ i : grid0.Coords, EltTy.bits .f32 = 32 ∨ (Rect.block (s := S8192x11008) S512x5504.size (cc0_transform_3 i) (hinb0_3 i)).WholeWords (EltTy.packing .f32)

variable [Facts₀]

def gather_S256_S11008x4096x1_S11008x4096_n_0_n_n_0_2_1 : GatherDims S256 S11008x4096x1 S11008x4096 where
  offsetDims := []
  collapsedSliceDims := [0]
  operandBatchingDims := []
  startIndicesBatchingDims := []
  startIndexMap := [0]
  indexVectorDim := 2
  sliceSizes := ![1]
  wf := gather_S256_S11008x4096x1_S11008x4096_n_0_n_n_0_2_1_wf
def dot_S512x512_S5504x512_S512x5504_1_1_0_0_n_n : DotDims S512x512 S5504x512 S512x5504 where
  lhsContracting := [1]
  rhsContracting := [1]
  lhsNonContracting := [0]
  rhsNonContracting := [0]
  lhsBatch := []
  rhsBatch := []
  wf := dot_S512x512_S5504x512_S512x5504_1_1_0_0_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5504x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S256 : Shape := ⟨1, ![256]⟩
abbrev S11008 : Shape := ⟨1, ![11008]⟩
abbrev S_ : Shape := ⟨0, ![]⟩
abbrev S11008x4096x1 : Shape := ⟨3, ![11008, 4096, 1]⟩
abbrev S8192x4096 : Shape := ⟨2, ![8192, 4096]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S256, .f32⟩
  | .hbm, ⟨3, _⟩ => ⟨S11008, .f32⟩
  | .hbm, ⟨4, _⟩ => ⟨S_, .i32⟩
  | .hbm, ⟨5, _⟩ => ⟨S11008x4096, .i32⟩
  | .hbm, ⟨6, _⟩ => ⟨S11008x4096, .i1⟩
  | .hbm, ⟨7, _⟩ => ⟨S_, .i32⟩
  | .hbm, ⟨8, _⟩ => ⟨S11008x4096, .i32⟩
  | .hbm, ⟨9, _⟩ => ⟨S11008x4096, .i32⟩
  | .hbm, ⟨10, _⟩ => ⟨S11008x4096, .i32⟩
  | .hbm, ⟨11, _⟩ => ⟨S11008x4096x1, .i32⟩
  | .hbm, ⟨12, _⟩ => ⟨S11008x4096, .f32⟩
  | .hbm, ⟨13, _⟩ => ⟨S8192x4096, .f32⟩
  | .hbm, ⟨14, _⟩ => ⟨S8192x11008, .f32⟩
  | .hbm, ⟨15, _⟩ => ⟨S4x2048x11008, .f32⟩
  | .hbm, ⟨16, _⟩ => ⟨S1x1x11008, .f32⟩
  | .hbm, ⟨17, _⟩ => ⟨S4x2048x11008, .f32⟩
  | .hbm, ⟨18, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S4x2048x4096_S8192x4096 : S4x2048x4096.ShapeCasts S8192x4096
  shapeCasts_S8192x11008_S4x2048x11008 : S8192x11008.ShapeCasts S4x2048x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S256_S11008x4096x1_S11008x4096_n_0_n_n_0_2_1_wf : GatherDims.WF S256 S11008x4096x1 S11008x4096 [] [0] [] [0] [] 2 ![1]
  dot_S8192x4096_S11008x4096_S8192x11008_1_1_0_0_n_n_wf : DotDims.WF S8192x4096 S11008x4096 S8192x11008 [1] [1] [0] [0] [] []

variable [Facts₀]

def gather_S256_S11008x4096x1_S11008x4096_n_0_n_n_0_2_1 : GatherDims S256 S11008x4096x1 S11008x4096 where
  offsetDims := []
  collapsedSliceDims := [0]
  operandBatchingDims := []
  startIndicesBatchingDims := []
  startIndexMap := [0]
  indexVectorDim := 2
  sliceSizes := ![1]
  wf := gather_S256_S11008x4096x1_S11008x4096_n_0_n_n_0_2_1_wf
def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Spec.lean ====
/-
  The mathematics of the quantized linear layer, with no program in sight.

  An output entry is a dot product over the 4096 input features plus a bias:
  out (r, c) = (∑ k < 4096, X (r, k) · W (c, k)) + B (0, c), for X of 8192 rows, W of 11008 rows and a bias row B.
  The kernel takes the dot product in eight consecutive runs of 512 features, adding each run to what the runs before
  it left; the reference takes it in one. On the extended reals addition is associative and commutative with unit 0
  (whatever is infinite), so the running total after the first n features is the sum of the first n terms: the sum
  over Finset.range n of one term per feature. Terms are read through wrapped coordinates, which makes them defined at every natural number and
  equal to the array's entries wherever the coordinates are in range.
-/
import Idealize.ShloMosaic.PureOps.Ideal
import Idealize.ShloMosaic.Lib.ValueIdx

noncomputable section

namespace Cert.QuantLinear

open Idealize.ShloMosaic Idealize.ShloMosaic.ValueIdx

/-- The activations as a matrix: 8192 rows (batch × sequence) of 4096 features. -/
abbrev SX : Shape := ⟨2, ![8192, 4096]⟩
/-- The dequantized weights: 11008 output features, each a row of 4096 input features. -/
abbrev SW : Shape := ⟨2, ![11008, 4096]⟩
/-- The bias as a row. -/
abbrev SB : Shape := ⟨2, ![1, 11008]⟩
/-- The result as a matrix. -/
abbrev SO : Shape := ⟨2, ![8192, 11008]⟩

/-- The product contributed by input feature K to the output entry (r, c), the coordinates wrapped into range. -/
def term (X : SX.Idx → EReal) (W : SW.Idx → EReal) (r c K : ℕ) : EReal :=
  X (ix2 (⟨r % 8192, Nat.mod_lt _ (by decide)⟩ : Fin 8192) (⟨K % 4096, Nat.mod_lt _ (by decide)⟩ : Fin 4096))
    * W (ix2 (⟨c % 11008, Nat.mod_lt _ (by decide)⟩ : Fin 11008) (⟨K % 4096, Nat.mod_lt _ (by decide)⟩ : Fin 4096))

/-- Where the coordinates are in range the term is the product of the two entries. -/
theorem term_eq (X : SX.Idx → EReal) (W : SW.Idx → EReal) (r : Fin 8192) (c : Fin 11008) (k : Fin 4096) :
    term X W r.val c.val k.val = X (ix2 r k) * W (ix2 c k) := by
  unfold term
  have hr : (⟨r.val % 8192, Nat.mod_lt _ (by decide)⟩ : Fin 8192) = r := Fin.ext (Nat.mod_eq_of_lt r.isLt)
  have hc : (⟨c.val % 11008, Nat.mod_lt _ (by decide)⟩ : Fin 11008) = c := Fin.ext (Nat.mod_eq_of_lt c.isLt)
  have hk : (⟨k.val % 4096, Nat.mod_lt _ (by decide)⟩ : Fin 4096) = k := Fin.ext (Nat.mod_eq_of_lt k.isLt)
  rw [hr, hc, hk]

/-- The dot product of row r of X and row c of W over the first n input features. -/
def partialDot (X : SX.Idx → EReal) (W : SW.Idx → EReal) (r c n : ℕ) : EReal :=
  ∑ K ∈ Finset.range n, term X W r c K

/-- Taking b more features adds their b terms. -/
theorem partialDot_add (X : SX.Idx → EReal) (W : SW.Idx → EReal) (r c n b : ℕ) :
    partialDot X W r c (n + b) = partialDot X W r c n + ∑ s : Fin b, term X W r c (n + s.val) := by
  unfold partialDot
  rw [Finset.sum_range_add, Finset.sum_range (fun s => term X W r c (n + s))]

/-- The first run of b features, from nothing. -/
theorem partialDot_first (X : SX.Idx → EReal) (W : SW.Idx → EReal) (r c b : ℕ) :
    partialDot X W r c b = ∑ s : Fin b, term X W r c s.val := by
  unfold partialDot
  rw [Finset.sum_range]

/-- All 4096 features: the whole dot product over the arrays' own entries. -/
theorem partialDot_full (X : SX.Idx → EReal) (W : SW.Idx → EReal) (r : Fin 8192) (c : Fin 11008) :
    partialDot X W r.val c.val 4096 = ∑ k : Fin 4096, X (ix2 r k) * W (ix2 c k) := by
  unfold partialDot
  rw [Finset.sum_range]
  exact Finset.sum_congr rfl fun k _ => term_eq X W r c k

/-- THE LAYER: entry (r, c) is row r of X against row c of W, plus the bias of output feature c. -/
def linear (X : SX.Idx → EReal) (W : SW.Idx → EReal) (B : SB.Idx → EReal) : SO.Idx → EReal := fun j =>
  (∑ k : Fin 4096, X (ix2 (⟨(j 0).val, (j 0).isLt⟩ : Fin 8192) k) * W (ix2 (⟨(j 1).val, (j 1).isLt⟩ : Fin 11008) k))
    + B (ix2 (0 : Fin 1) (⟨(j 1).val, (j 1).isLt⟩ : Fin 11008))

theorem linear_apply (X : SX.Idx → EReal) (W : SW.Idx → EReal) (B : SB.Idx → EReal) (r : Fin 8192) (c : Fin 11008) :
    linear X W B (ix2 r c) = (∑ k : Fin 4096, X (ix2 r k) * W (ix2 c k)) + B (ix2 (0 : Fin 1) c) := rfl

end Cert.QuantLinear

end
-- ==== Proof.Payload.lean ====
/-
  What the body's three stores hold, entry by entry, on the extended reals.

  The body clears its output block at the first run of features, adds to it the product of the activation tile
  (512 rows × 512 features) with the weight tile (5504 output features × 512 features) transposed, and after the
  last run adds the bias row to every row. Narrowing the activations to bf16 changes no value on the extended reals,
  and the matrix unit's product into a zero accumulator is the plain sum of products over the 512 features of the run.
-/
import proofs.«153915_j24704651886628_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The cleared block is zero everywhere. -/
theorem cleared_apply (j : S512x5504.Idx) : k0_pay1 (F := Ideal) j = 0 := by
  unfold k0_pay1
  show Ideal.ofBits .f32 0x00000000#32 = 0
  exact Ideal.ofBits_zero_f32

/-- Row coordinate of the activation tile's entry that meets output entry j: j's own row. -/
theorem tile_lhs_row (j : S512x5504.Idx) (k : dot_S512x512_S5504x512_S512x5504_1_1_0_0_n_n.contr.Idx) :
    (dot_S512x512_S5504x512_S512x5504_1_1_0_0_n_n.lhsIdx j k 0).val = (j 0).val := by
  unfold DotDims.lhsIdx
  rw [dif_neg (show ¬(0 : Fin S512x512.rank) ∈ dot_S512x512_S5504x512_S512x5504_1_1_0_0_n_n.lhsBatch by decide),
    dif_pos (show (0 : Fin S512x512.rank) ∈ dot_S512x512_S5504x512_S512x5504_1_1_0_0_n_n.lhsNonContracting by decide)]
  rfl

/-- Row coordinate of the weight tile's entry that meets output entry j: j's column (the weights are used transposed). -/
theorem tile_rhs_row (j : S512x5504.Idx) (k : dot_S512x512_S5504x512_S512x5504_1_1_0_0_n_n.contr.Idx) :
    (dot_S512x512_S5504x512_S512x5504_1_1_0_0_n_n.rhsIdx j k 0).val = (j 1).val := by
  unfold DotDims.rhsIdx
  rw [dif_neg (show ¬(0 : Fin S5504x512.rank) ∈ dot_S512x512_S5504x512_S512x5504_1_1_0_0_n_n.rhsBatch by decide),
    dif_pos (show (0 : Fin S5504x512.rank) ∈ dot_S512x512_S5504x512_S512x5504_1_1_0_0_n_n.rhsNonContracting by decide)]
  rfl

/-- The product of the two tiles into a zero accumulator: entry (p, q) is the sum over the run's 512 features of
    activation (p, s) times weight (q, s). -/
theorem tileProduct_apply (a : FVec Ideal S512x512 .bf16) (b : FVec Ideal S5504x512 .bf16) (p : Fin 512) (q : Fin 5504) :
    matmul dot_S512x512_S5504x512_S512x5504_1_1_0_0_n_n none a b (constant (F := Ideal) S512x5504 .f32 0x00000000#32) (ix2 p q)
      = ∑ s : Fin 512, a (ix2 p s) * b (ix2 q s) := by
  simp only [matmul]
  rw [Ideal.matmul_constant_zero_apply,
    ← Equiv.sum_comp (ValueIdx.contrEquiv1 dot_S512x512_S5504x512_S512x5504_1_1_0_0_n_n 512 rfl rfl).symm]
  refine Finset.sum_congr rfl fun s _ => ?_
  have hs := ValueIdx.contrEquiv1_symm_val dot_S512x512_S5504x512_S512x5504_1_1_0_0_n_n 512 rfl rfl s
  have el : dot_S512x512_S5504x512_S512x5504_1_1_0_0_n_n.lhsIdx (ix2 p q)
      ((ValueIdx.contrEquiv1 dot_S512x512_S5504x512_S512x5504_1_1_0_0_n_n 512 rfl rfl).symm s) = ix2 p s :=
    funext fun ax => Fin.ext (by
      match ax with
      | ⟨0, _⟩ => exact tile_lhs_row _ _
      | ⟨1, _⟩ => exact (dot_S512x512_S5504x512_S512x5504_1_1_0_0_n_n.lhsIdx_val_of_single rfl _ _).trans hs)
  have er : dot_S512x512_S5504x512_S512x5504_1_1_0_0_n_n.rhsIdx (ix2 p q)
      ((ValueIdx.contrEquiv1 dot_S512x512_S5504x512_S512x5504_1_1_0_0_n_n 512 rfl rfl).symm s) = ix2 q s :=
    funext fun ax => Fin.ext (by
      match ax with
      | ⟨0, _⟩ => exact tile_rhs_row _ _
      | ⟨1, _⟩ => exact (dot_S512x512_S5504x512_S512x5504_1_1_0_0_n_n.rhsIdx_val_of_single rfl _ _).trans hs)
  rw [el, er]

/-- One run of features: what was in the block plus the tiles' product. -/
theorem accumulated_apply (x : Vec Ideal S512x512 .f32) (acc : Vec Ideal S512x5504 .f32) (w : Vec Ideal S5504x512 .bf16)
    (p : Fin 512) (q : Fin 5504) :
    k0_pay2 (F := Ideal) x acc w (ix2 p q) = acc (ix2 p q) + ∑ s : Fin 512, x (ix2 p s) * w (ix2 q s) := by
  unfold k0_pay2
  simp only [shapeCast_self]
  refine (addf_apply _ _ _).trans ?_
  refine congrArg (acc (ix2 p q) + ·) ?_
  exact tileProduct_apply _ _ p q

/-- After the last run: the block plus the bias row on every row. -/
theorem biased_apply (acc : Vec Ideal S512x5504 .f32) (b : Vec Ideal S1x5504 .f32) (p : Fin 512) (q : Fin 5504) :
    k0_pay3 (F := Ideal) acc b (ix2 p q) = acc (ix2 p q) + b (ix2 (0 : Fin 1) q) := by
  unfold k0_pay3
  simp only [shapeCast_self]
  refine (addf_apply _ _ _).trans ?_
  refine congrArg (acc (ix2 p q) + ·) ?_
  exact broadcastTo_1b_ab_apply _ _ p q

end Cert.KernelIdeal.Payload

end
-- ==== Proof.Body.lean ====
/-
  What the kernel body leaves in its output block, in each of its three situations, as a function of what it loads.

  The output block stays in place while the feature runs of one output tile go by. At the first run the body clears
  the block and then adds the tiles' product to the cleared block; at a middle run it adds the product to what the
  run before left; at the last run it does the same and then adds the bias row. Each situation ends with one store of
  the whole block, so what the block holds is that store's value, with every load of the block read as the value the
  store before it wrote.
-/
import proofs.«153915_j24704651886628_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem zeroOffsets : (![0, 0] : Fin 2 → Nat) = fun _ => 0 := funext fun a => by fin_cases a <;> rfl

/-- FIRST RUN of features: the cleared block plus the tiles' product. -/
theorem first (c : Dev nD) (i : grid0.Coords) (a3 : Memref sig .tc .vmem S512x512 .f32) (h3 : a3.IsWhole)
    (a4 : Memref sig .tc .vmem S5504x512 .bf16) (h4 : a4.IsWhole) (a5 : Memref sig .tc .vmem S1x5504 .f32) (h5 : a5.IsWhole)
    (a6 : Memref sig .tc .vmem S512x5504 .f32) (h6 : a6.IsWhole) (hc0 : cond0_0 i) (hc1 : ¬cond0_1 i)
    (x0 : Vec F S512x512 .f32) (x1 : Vec F S5504x512 .bf16) (x2 : Vec F S1x5504 .f32) :
    out0_A_3 c i a3 h3 a4 h4 a5 h5 a6 h6 hc0 hc1 x0 x1 x2 = k0_pay2 x0 (k0_pay1 (F := F)) x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S512x5504) zeroOffsets, View.readCov_unit_zero (S := S512x5504) _ zeroOffsets]
  simp only [View.readAt_eq_ld, h3.read_unread, h4.read_unread, View.ld_unit_zero (S := S512x512) zeroOffsets,
    View.ld_unit_zero (S := S5504x512) zeroOffsets]

/-- A MIDDLE RUN: what the run before left plus the tiles' product. -/
theorem middle (c : Dev nD) (i : grid0.Coords) (a3 : Memref sig .tc .vmem S512x512 .f32) (h3 : a3.IsWhole)
    (a4 : Memref sig .tc .vmem S5504x512 .bf16) (h4 : a4.IsWhole) (a5 : Memref sig .tc .vmem S1x5504 .f32) (h5 : a5.IsWhole)
    (a6 : Memref sig .tc .vmem S512x5504 .f32) (h6 : a6.IsWhole) (hc0 : ¬cond0_0 i) (hc1 : ¬cond0_1 i)
    (x0 : Vec F S512x512 .f32) (x1 : Vec F S5504x512 .bf16) (x2 : Vec F S1x5504 .f32) (xo3 : Vec F S512x5504 .f32) :
    out0_B_3 c i a3 h3 a4 h4 a5 h5 a6 h6 hc0 hc1 x0 x1 x2 xo3 = k0_pay2 x0 xo3 x1 := by
  unfold out0_B_3
  rw [View.read_writes_eq_canon _ _ _ (cover0_B_3 c i a3 h3 a4 h4 a5 h5 a6 h6 hc0 hc1 x0 x1 x2 xo3)]
  unfold kernelRun0_B
  dsimp only
  sl_unfold_words
  rw [View.canon_unit_zero (S := S512x5504) zeroOffsets]
  simp only [View.readAt_eq_ld, h3.read_unread, h4.read_unread, h6.read_unread, View.ld_unit_zero (S := S512x512) zeroOffsets,
    View.ld_unit_zero (S := S5504x512) zeroOffsets, View.ld_unit_zero (S := S512x5504) zeroOffsets]

/-- THE LAST RUN: the same, and then the bias row added to every row. -/
theorem last (c : Dev nD) (i : grid0.Coords) (a3 : Memref sig .tc .vmem S512x512 .f32) (h3 : a3.IsWhole)
    (a4 : Memref sig .tc .vmem S5504x512 .bf16) (h4 : a4.IsWhole) (a5 : Memref sig .tc .vmem S1x5504 .f32) (h5 : a5.IsWhole)
    (a6 : Memref sig .tc .vmem S512x5504 .f32) (h6 : a6.IsWhole) (hc0 : ¬cond0_0 i) (hc1 : cond0_1 i)
    (x0 : Vec F S512x512 .f32) (x1 : Vec F S5504x512 .bf16) (x2 : Vec F S1x5504 .f32) (xo3 : Vec F S512x5504 .f32) :
    out0_C_3 c i a3 h3 a4 h4 a5 h5 a6 h6 hc0 hc1 x0 x1 x2 xo3 = k0_pay3 (k0_pay2 x0 xo3 x1) x2 := by
  unfold out0_C_3
  rw [View.read_writes_eq_canon _ _ _ (cover0_C_3 c i a3 h3 a4 h4 a5 h5 a6 h6 hc0 hc1 x0 x1 x2 xo3)]
  unfold kernelRun0_C
  dsimp only
  sl_unfold_words
  rw [View.canon_cons_unit_zero (S := S512x5504) zeroOffsets, View.readCov_unit_zero (S := S512x5504) _ zeroOffsets]
  simp only [View.readAt_eq_ld, h3.read_unread, h4.read_unread, h5.read_unread, h6.read_unread,
    View.ld_unit_zero (S := S512x512) zeroOffsets, View.ld_unit_zero (S := S5504x512) zeroOffsets,
    View.ld_unit_zero (S := S512x5504) zeroOffsets, View.ld_unit_zero (S := S1x5504) zeroOffsets]

end Cert.KernelIdeal.Body

end
-- ==== Proof.Blocks.lean ====
/-
  Where each tile sits in its array.

  The grid has 16 × 2 × 8 points, taken in row-major order, so point t is (row tile, column tile, feature run) =
  (t / 16, t / 8 mod 2, t mod 8). At that point the body sees rows 512·(t/16) … of the activations and features
  512·(t mod 8) … of both the activations and the weights, output features 5504·(t/8 mod 2) … of the weights and of
  the bias row, and writes the output tile at (t/16, t/8 mod 2). An entry inside a tile is the array's entry at
  tile number × tile extent + the coordinate inside the tile, on each axis.
-/
import proofs.«153915_j24704651886628_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The tile numbers of every window at every grid point, decided once over the 256 points. -/
theorem tileNumbers : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2)

/-- The activation tile at point t: entry (p, s) is the activations' entry at row 512·(t/16) + p, feature 512·(t mod 8) + s. -/
theorem activation_apply (c : Dev nD) (t : Fin cfg0.N) (p s : Fin 512) (i : S8192x4096.Idx)
    (h0 : (i 0).val = 512 * (t.val / 16) + p.val) (h1 : (i 1).val = 512 * (t.val % 8) + s.val) :
    (iblk m c 0 t : Vec F S512x512 .f32) (ix2 p s) = V m c main_v8 i := by
  unfold iblk
  rw [View.read_apply]
  show V m c main_v8 (((cfg0.win 0).blk t).view.emb (ix2 p s)) = V m c main_v8 i
  refine congrArg (V m c main_v8) (funext fun a => Fin.ext ?_)
  obtain ⟨f0, f1, -⟩ := tileNumbers t
  match a with
  | ⟨0, _⟩ => show win0_0.index t 0 * 512 + 1 * p.val = (i 0).val; rw [f0, h0]; omega
  | ⟨1, _⟩ => show win0_0.index t 1 * 512 + 1 * s.val = (i 1).val; rw [f1, h1]; omega

/-- The weight tile at point t: entry (q, s) is the weights' entry at output feature 5504·(t/8 mod 2) + q, input
    feature 512·(t mod 8) + s. -/
theorem weight_apply (c : Dev nD) (t : Fin cfg0.N) (q : Fin 5504) (s : Fin 512) (i : S11008x4096.Idx)
    (h0 : (i 0).val = 5504 * (t.val / 8 % 2) + q.val) (h1 : (i 1).val = 512 * (t.val % 8) + s.val) :
    (iblk m c 1 t : Vec F S5504x512 .bf16) (ix2 q s) = V m c main_v7 i := by
  unfold iblk
  rw [View.read_apply]
  show V m c main_v7 (((cfg0.win 1).blk t).view.emb (ix2 q s)) = V m c main_v7 i
  refine congrArg (V m c main_v7) (funext fun a => Fin.ext ?_)
  obtain ⟨-, -, f0, f1, -⟩ := tileNumbers t
  match a with
  | ⟨0, _⟩ => show win0_1.index t 0 * 5504 + 1 * q.val = (i 0).val; rw [f0, h0]; omega
  | ⟨1, _⟩ => show win0_1.index t 1 * 512 + 1 * s.val = (i 1).val; rw [f1, h1]; omega

/-- The bias tile at point t: entry (0, q) is the bias row's entry at output feature 5504·(t/8 mod 2) + q. -/
theorem bias_apply (c : Dev nD) (t : Fin cfg0.N) (q : Fin 5504) (i : S1x11008.Idx)
    (h0 : (i 0).val = 0) (h1 : (i 1).val = 5504 * (t.val / 8 % 2) + q.val) :
    (iblk m c 2 t : Vec F S1x5504 .f32) (ix2 (0 : Fin 1) q) = V m c main_v9 i := by
  unfold iblk
  rw [View.read_apply]
  show V m c main_v9 (((cfg0.win 2).blk t).view.emb (ix2 (0 : Fin 1) q)) = V m c main_v9 i
  refine congrArg (V m c main_v9) (funext fun a => Fin.ext ?_)
  obtain ⟨-, -, -, -, f0, f1, -⟩ := tileNumbers t
  match a with
  | ⟨0, _⟩ => show win0_2.index t 0 * 1 + 1 * 0 = (i 0).val; rw [f0, h0]
  | ⟨1, _⟩ => show win0_2.index t 1 * 5504 + 1 * q.val = (i 1).val; rw [f1, h1]; omega

end Cert.KernelIdeal.Blocks

end
-- ==== Proof.Accumulate.lean ====
/-
  The running total in the output block, point by point.

  Take point n of the grid: row tile n/16, column tile n/8 mod 2, feature run n mod 8. After the body has run there,
  entry (p, q) of the output block holds the dot product of activation row 512·(n/16) + p and weight row
  5504·(n/8 mod 2) + q over the first 512·(n mod 8 + 1) input features — the runs so far — and, once the last run is
  done, that dot product over all 4096 features plus the bias of that output feature. By induction on the point:
  a first run starts from the cleared block, any later run adds its 512 terms to what the point before left, and the
  point before a later run is in the same tiles, one run earlier.
-/
import proofs.«153915_j24704651886628_2_alg».proof.Proof.Spec
import proofs.«153915_j24704651886628_2_alg».proof.Proof.Payload
import proofs.«153915_j24704651886628_2_alg».proof.Proof.Body
import proofs.«153915_j24704651886628_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.QuantLinear

variable (m : (ℓ : Loc nD τ sig) → Buf (Elt Ideal) ℓ)

/-- The three arrays the kernel reads, as it finds them: activations, dequantized weights, bias row. -/
def acts (c : Dev nD) : SX.Idx → EReal := V m c main_v8
def wts (c : Dev nD) : SW.Idx → EReal := V m c main_v7
def biasRow (c : Dev nD) : SB.Idx → EReal := V m c main_v9

/-- One more run of 512 features. -/
theorem partialDot_run (X : SX.Idx → EReal) (W : SW.Idx → EReal) (r c k : ℕ) :
    partialDot X W r c (512 * (k + 1)) = partialDot X W r c (512 * k) + ∑ s : Fin 512, term X W r c (512 * k + s.val) := by
  rw [Nat.mul_succ]
  exact partialDot_add X W r c (512 * k) 512

/-- The tiles' product at point n, entry (p, q), is the 512 terms of run n mod 8 for the entry's row and column. -/
theorem run_terms (c : Dev nD) (n : ℕ) (h : n < cfg0.N) (p : Fin 512) (q : Fin 5504)
    (x : Vec Ideal S512x512 .f32) (w : Vec Ideal S5504x512 .bf16) (hx : x = iblk m c 0 ⟨n, h⟩) (hw : w = iblk m c 1 ⟨n, h⟩) :
    (∑ s : Fin 512, x (ix2 p s) * w (ix2 q s))
      = ∑ s : Fin 512, term (acts m c) (wts m c) (512 * (n / 16) + p.val) (5504 * (n / 8 % 2) + q.val) (512 * (n % 8) + s.val) := by
  subst hx hw
  have hN : n < 256 := lt_of_lt_of_eq h N_0
  have hp := p.isLt
  have hq := q.isLt
  refine Finset.sum_congr rfl fun s _ => ?_
  have hs := s.isLt
  unfold term acts wts
  refine congrArg₂ (· * ·) (Blocks.activation_apply m c ⟨n, h⟩ p s _ ?_ ?_) (Blocks.weight_apply m c ⟨n, h⟩ q s _ ?_ ?_)
  · show (512 * (n / 16) + p.val) % 8192 = 512 * (n / 16) + p.val; omega
  · show (512 * (n % 8) + s.val) % 4096 = 512 * (n % 8) + s.val; omega
  · show (5504 * (n / 8 % 2) + q.val) % 11008 = 5504 * (n / 8 % 2) + q.val; omega
  · show (512 * (n % 8) + s.val) % 4096 = 512 * (n % 8) + s.val; omega

/-- BEFORE THE LAST RUN the block holds the partial dot products over the runs so far. -/
theorem running (c : Dev nD) : ∀ (n : ℕ) (h : n < cfg0.N), n % 8 ≠ 7 → ∀ (p : Fin 512) (q : Fin 5504),
    outsAt0 m c n h (ix2 p q)
      = partialDot (acts m c) (wts m c) (512 * (n / 16) + p.val) (5504 * (n / 8 % 2) + q.val) (512 * (n % 8 + 1))
  | 0, h, _, p, q => by
    rw [outsAt0_A m c ⟨0, h⟩ rfl (show ¬ (0 : ℕ) % 8 = 7 by decide), Body.first, Payload.accumulated_apply,
      Payload.cleared_apply, zero_add (Finset.sum _ _), run_terms m c 0 h p q _ _ rfl rfl, partialDot_run,
      show (512 : ℕ) * (0 % 8) = 0 from rfl]
    unfold partialDot
    rw [Finset.range_zero, Finset.sum_empty]
    exact (zero_add _).symm
  | n + 1, h, h7, p, q => by
    have hN : n + 1 < 256 := lt_of_lt_of_eq h N_0
    by_cases h0 : (n + 1) % 8 = 0
    · rw [outsAt0_A m c ⟨n + 1, h⟩ h0 h7, Body.first, Payload.accumulated_apply, Payload.cleared_apply,
        zero_add (Finset.sum _ _), run_terms m c (n + 1) h p q _ _ rfl rfl, partialDot_run, h0]
      unfold partialDot
      rw [Nat.mul_zero, Finset.range_zero, Finset.sum_empty]
      exact (zero_add _).symm
    · rw [outsAt0_B m c ⟨n + 1, h⟩ h0 h7, Body.middle, Payload.accumulated_apply]
      show outsAt0 m c n _ (ix2 p q) + _ = _
      rw [running c n (Nat.lt_of_succ_lt h) (by omega) p q, run_terms m c (n + 1) h p q _ _ rfl rfl,
        show (n + 1) / 16 = n / 16 by omega, show (n + 1) / 8 % 2 = n / 8 % 2 by omega,
        show (n + 1) % 8 = n % 8 + 1 by omega, partialDot_run _ _ _ _ (n % 8 + 1)]

/-- AFTER THE LAST RUN it holds the whole dot products plus the bias. -/
theorem finished (c : Dev nD) (n : ℕ) (h : n < cfg0.N) (h7 : n % 8 = 7) (p : Fin 512) (q : Fin 5504) (b : SB.Idx)
    (hb0 : (b 0).val = 0) (hb1 : (b 1).val = 5504 * (n / 8 % 2) + q.val) :
    outsAt0 m c n h (ix2 p q)
      = partialDot (acts m c) (wts m c) (512 * (n / 16) + p.val) (5504 * (n / 8 % 2) + q.val) 4096 + biasRow m c b := by
  have hN : n < 256 := lt_of_lt_of_eq h N_0
  rw [outsAt0_C m c ⟨n, h⟩ (show ¬ n % 8 = 0 by omega) h7, Body.last, Payload.biased_apply, Payload.accumulated_apply]
  show (outsAt0 m c (n - 1) _ (ix2 p q) + _) + _ = _
  rw [running m c (n - 1) _ (by omega) p q, run_terms m c n h p q _ _ rfl rfl,
    show (n - 1) / 16 = n / 16 by omega, show (n - 1) / 8 % 2 = n / 8 % 2 by omega,
    show (n - 1) % 8 + 1 = 7 by omega, h7, ← partialDot_run _ _ _ _ 7,
    Blocks.bias_apply m c ⟨n, h⟩ q b hb0 hb1]
  rfl

end Cert.KernelIdeal.Accumulate

end
-- ==== Proof.Result.lean ====
/-
  From output tiles to the output matrix.

  The output tile at (row tile, column tile) is written back once, after the last run of features. By then entry
  (p, q) of the block holds the whole dot product of activation row 512·(row tile) + p and weight row
  5504·(column tile) + q plus that output feature's bias: the layer's entry at that row and column. The 16 × 2
  tiles fill the 8192 × 11008 matrix — entry (r, c) lies in the tile (r / 512, c / 5504) — so after the run the
  matrix is the layer of the three arrays the kernel read.
-/
import proofs.«153915_j24704651886628_2_alg».proof.Proof.Accumulate

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.QuantLinear Cert.KernelIdeal.Accumulate

variable (m : (ℓ : Loc nD τ sig) → Buf (Elt Ideal) ℓ)

/-- The layer of the arrays the kernel reads. -/
def matrix (c : Dev nD) : SO.Idx → EReal := linear (acts m c) (wts m c) (biasRow m c)

/-- WHAT A LAST RUN WRITES BACK is its tile of the layer. -/
theorem flushed_eq (c : Dev nD) (t : Fin cfg0.N) (hf : (cfg0.win 3).flush t = true) :
    (dats m 0 c).flushed 3 t = ((cfg0.win 3).blk t).view.read (Elt Ideal) (matrix m c) := by
  have h7 : t.val % 8 = 7 := (flush0_3 t).mp hf
  have hN : t.val < 256 := lt_of_lt_of_eq t.isLt N_0
  show (cfg0.win 3).cut (grid0.coords t) ((dats m 0 c).after 3 t) = _
  rw [after0_3]
  refine funext fun (y : S512x5504.Idx) => ?_
  obtain ⟨p, q, rfl⟩ : ∃ (p : Fin 512) (q : Fin 5504), y = ix2 p q := ⟨y 0, y 1, eq_ix2 y⟩
  have hp := p.isLt
  have hq := q.isLt
  show outsAt0 m c t.val t.isLt (ix2 p q) = matrix m c (((cfg0.win 3).blk t).view.emb (ix2 p q))
  obtain ⟨-, -, -, -, -, -, f0, f1⟩ := Blocks.tileNumbers t
  have hemb : ((cfg0.win 3).blk t).view.emb (ix2 p q)
      = (ix2 (⟨512 * (t.val / 16) + p.val, by omega⟩ : Fin 8192) (⟨5504 * (t.val / 8 % 2) + q.val, by omega⟩ : Fin 11008) : S8192x11008.Idx) := by
    funext a; apply Fin.ext
    match a with
    | ⟨0, _⟩ => show win0_3.index t 0 * 512 + 1 * p.val = 512 * (t.val / 16) + p.val; rw [f0]; omega
    | ⟨1, _⟩ => show win0_3.index t 1 * 5504 + 1 * q.val = 5504 * (t.val / 8 % 2) + q.val; rw [f1]; omega
  rw [hemb]
  unfold matrix
  rw [linear_apply, ← partialDot_full]
  exact finished m c t.val t.isLt h7 p q _ rfl rfl

/-- An entry of the matrix is in point t's tile iff each coordinate is in the tile's range on its axis. -/
theorem mem_tile (t : Fin cfg0.N) (i : S8192x11008.Idx) :
    i ∈ ((cfg0.win 3).blk t).view.set ↔ ∀ a : Fin 2, win0_3.index t a * S512x5504.size a ≤ (i a).val
      ∧ (i a).val < win0_3.index t a * S512x5504.size a + S512x5504.size a := by
  show i ∈ ((View.whole main_v10).slice (win0_3.rect t)).set ↔ _
  rw [View.set_slice_whole, Rect.mem_set_unit]
  exact Iff.rfl

/-- Every entry is in the tile some last run writes back: entry (r, c) in that of the point (r / 512, c / 5504, 7). -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hlt : (i 0).val / 512 * 16 + (i 1).val / 5504 * 8 + 7 < cfg0.N := Nat.lt_of_lt_of_eq (by omega) N_0.symm
  refine ⟨⟨(i 0).val / 512 * 16 + (i 1).val / 5504 * 8 + 7, hlt⟩,
    (flush0_3 _).mpr (show ((i 0).val / 512 * 16 + (i 1).val / 5504 * 8 + 7) % 8 = 7 by omega), ?_⟩
  rw [mem_tile]
  obtain ⟨-, -, -, -, -, -, f0, f1⟩ := Blocks.tileNumbers ⟨(i 0).val / 512 * 16 + (i 1).val / 5504 * 8 + 7, hlt⟩
  intro a
  match a with
  | ⟨0, _⟩ =>
    show win0_3.index _ 0 * 512 ≤ (i 0).val ∧ (i 0).val < win0_3.index _ 0 * 512 + 512
    rw [f0]
    show ((i 0).val / 512 * 16 + (i 1).val / 5504 * 8 + 7) / 16 * 512 ≤ (i 0).val
      ∧ (i 0).val < ((i 0).val / 512 * 16 + (i 1).val / 5504 * 8 + 7) / 16 * 512 + 512
    omega
  | ⟨1, _⟩ =>
    show win0_3.index _ 1 * 5504 ≤ (i 1).val ∧ (i 1).val < win0_3.index _ 1 * 5504 + 5504
    rw [f1]
    show ((i 0).val / 512 * 16 + (i 1).val / 5504 * 8 + 7) / 8 % 2 * 5504 ≤ (i 1).val
      ∧ (i 1).val < ((i 0).val / 512 * 16 + (i 1).val / 5504 * 8 + 7) / 8 % 2 * 5504 + 5504
    omega

/-- THE MATRIX AFTER THE RUN is the layer of the arrays the kernel read. -/
theorem final (c : Dev nD) : (dats m 0 c).arrAt 3 cfg0.N = matrix m c :=
  (dats m 0 c).arrAt_eq_of_cover 3 (matrix m c) (flushed_eq m c) covered

end Cert.KernelIdeal.Result

end
-- ==== Proof.Layer.lean ====
/-
  The whole computation as one function of the program's four arguments.

  The codebook has 256 entries and every weight is a code into it; a negative code counts from the end (code + 256).
  The dequantized weights are the codebook's entries at those codes (the lookup clamps a code that is still out of
  range, the same way wherever it is used). The activations [4, 2048, 4096] are read as 8192 rows, the bias as one row,
  the layer is applied, and its 8192 rows are read back as [4, 2048] rows. Narrowing the codebook to bf16 before the
  lookup changes no value on the extended reals.
-/
import proofs.«153915_j24704651886628_2_alg».proof.Proof.Gen.KernelIdeal
import proofs.«153915_j24704651886628_2_alg».proof.Proof.Spec

noncomputable section

namespace Cert.KernelIdeal.Layer

open Cert.KernelIdeal Cert.KernelIdeal.Gen Cert.QuantLinear Idealize.ShloMosaic

/-- The codes as the lookup takes them: a negative code moved up by 256, each code in a trailing axis of length one. -/
def codes (idx : IVec S11008x4096 32) : IVec S11008x4096x1 32 :=
  broadcastInDim S11008x4096x1 ![0, 1] bcast_S11008x4096_S11008x4096x1_0_1
    (select (cmpi .slt idx (broadcastInDim S11008x4096 ![] bcast_S_S11008x4096 (constantI S_ 32 0#32)))
      (addi idx (broadcastInDim S11008x4096 ![] bcast_S_S11008x4096 (constantI S_ 32 256#32))) idx)

/-- The dequantized weights: the (narrowed) codebook's entry at each code. -/
def weights (idx : IVec S11008x4096 32) (cb : FVec Ideal S256 .f32) : FVec Ideal S11008x4096 .bf16 :=
  Host.gather gather_S256_S11008x4096x1_S11008x4096_n_0_n_n_0_2_1 (truncf .bf16 cb bitsLt_bf16_f32) (codes idx)

/-- THE RESULT: the layer of the activations' rows, the dequantized weights and the bias row, its rows regrouped. -/
def layer (x : FVec Ideal S4x2048x4096 .f32) (idx : IVec S11008x4096 32) (cb : FVec Ideal S256 .f32) (b : FVec Ideal S11008 .f32) :
    FVec Ideal S4x2048x11008 .f32 :=
  shapeCast S4x2048x11008
    (linear (shapeCast S8192x4096 x shapeCasts_S4x2048x4096_S8192x4096) (weights idx cb)
      (shapeCast S1x11008 b shapeCasts_S11008_S1x11008))
    shapeCasts_S8192x11008_S4x2048x11008

end Cert.KernelIdeal.Layer

end
-- ==== Proof.Host.lean ====
/-
  The kernel's program around its one region, read as values.

  Before the region the program narrows the codebook, looks the weights up, and reads the activations as 8192 rows and
  the bias as one row: those are the three arrays the region finds. After the region it reads the matrix's 8192 rows
  back as [4, 2048] rows. So the program's result is the layer of its four arguments, and its arguments end as they
  began.
-/
import proofs.«153915_j24704651886628_2_alg».proof.Proof.Result
import proofs.«153915_j24704651886628_2_alg».proof.Proof.Layer
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.QuantLinear Cert.KernelIdeal.Accumulate Cert.KernelIdeal.Layer

variable (m : (ℓ : Loc nD τ sig) → Buf (Elt Ideal) ℓ)

/-- The activations the region finds are the first argument read as 8192 rows. -/
theorem acts_eq (c : Dev nD) :
    acts m c = shapeCast S8192x4096 (m ((c : Thread nD τ).loc main_arg0)) shapeCasts_S4x2048x4096_S8192x4096 := by
  unfold acts
  show StableHlo.after hostOps0 (fun b => m (c, b)) (Proc.devRef .tc main_v8) = _
  after_results
  rfl

/-- The weights it finds are the codebook's entries at the codes. -/
theorem wts_eq (c : Dev nD) :
    wts m c = weights (m ((c : Thread nD τ).loc main_arg1)) (m ((c : Thread nD τ).loc main_arg2)) := by
  unfold wts
  show StableHlo.after hostOps0 (fun b => m (c, b)) (Proc.devRef .tc main_v7) = _
  after_results
  rfl

/-- The bias row it finds is the fourth argument read as one row. -/
theorem biasRow_eq (c : Dev nD) :
    biasRow m c = shapeCast S1x11008 (m ((c : Thread nD τ).loc main_arg3)) shapeCasts_S11008_S1x11008 := by
  unfold biasRow
  show StableHlo.after hostOps0 (fun b => m (c, b)) (Proc.devRef .tc main_v9) = _
  after_results
  rfl

/-- The program's result buffer after the line that follows the region: the region's matrix, its rows regrouped. -/
theorem tail_eq (c : Dev nD) :
    Pipeline.afterTail₀ cfgs (dats m) 0 (V0 m) [hostOps1] c main_v11
      = shapeCast S4x2048x11008 (Result.matrix m c) shapeCasts_S8192x11008_S4x2048x11008 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = Result.matrix m c :=
    (Pipeline.withArrays_arr spec0 launch0.win.arr_inj c _ _ 3).trans (Result.final m c)
  rw [e]
  rfl

/-- The region's matrix, regrouped, is the layer of the four arguments. -/
theorem result_eq (c : Dev nD) :
    shapeCast S4x2048x11008 (Result.matrix m c) shapeCasts_S8192x11008_S4x2048x11008
      = layer (m ((c : Thread nD τ).loc main_arg0)) (m ((c : Thread nD τ).loc main_arg1))
          (m ((c : Thread nD τ).loc main_arg2)) (m ((c : Thread nD τ).loc main_arg3)) := by
  unfold Result.matrix layer
  rw [acts_eq, wts_eq, biasRow_eq]

/-- THE RUN, READ: every weakly fair execution of the program ends with its result at the layer of its arguments
    and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v11)
          = layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v11 (Pipeline.mem_restRefs_of main_v11 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.Bridge.lean ====
/-
  The reference computes the same layer.

  The reference looks the weights up in the codebook as given (the kernel's program narrows the codebook first, which
  changes no value on the extended reals), contracts the 8192 activation rows with the weight rows over the 4096
  features in one product, regroups the rows as [4, 2048] and adds the bias. Entry (a, b, c) of its result is the dot
  product of activation row 2048·a + b and weight row c, plus bias c — the layer's entry at row 2048·a + b, column c.
-/
import proofs.«153915_j24704651886628_2_alg».proof.Proof.Layer
import proofs.«153915_j24704651886628_2_alg».proof.Proof.Gen.ReferenceIdeal.Read
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.QuantLinear
open Idealize.ShloMosaic Idealize.ShloMosaic.ValueIdx

/-- Both programs look up the same weights: the same codes into the same codebook values. -/
theorem weights_eq (x1 : (⟨S11008x4096, .i32⟩ : BufTy).Contents (Elt Ideal)) (x2 : (⟨S256, .f32⟩ : BufTy).Contents (Elt Ideal)) :
    Cert.KernelIdeal.Layer.weights x1 x2 = val_main_v6 (F := Ideal) x1 x2 := rfl

/-- Row-major position: entry (a, b, c) of the regrouped result is entry (2048·a + b, c) of the matrix. -/
theorem regroup (i : S4x2048x11008.Idx) :
    (S8192x11008.rowMajor (idx_main_v9 i)).val = (S4x2048x11008.rowMajor i).val := by
  rewrite [Shape.rowMajor_val_two, Shape.rowMajor_val_three]
  have h0 : (i 0).val < 4 := (i 0).isLt
  have h1 : (i 1).val < 2048 := (i 1).isLt
  have h2 : (i 2).val < 11008 := (i 2).isLt
  show (((i 0).val * 2048 + (i 1).val) * 11008 + (i 2).val) / 11008 * 11008
      + (((i 0).val * 2048 + (i 1).val) * 11008 + (i 2).val) % 11008 = ((i 0).val * 2048 + (i 1).val) * 11008 + (i 2).val
  omega

/-- THE REFERENCE'S RESULT is the layer of its four arguments. -/
theorem layer_eq (x0 : (⟨S4x2048x4096, .f32⟩ : BufTy).Contents (Elt Ideal)) (x1 : (⟨S11008x4096, .i32⟩ : BufTy).Contents (Elt Ideal))
    (x2 : (⟨S256, .f32⟩ : BufTy).Contents (Elt Ideal)) (x3 : (⟨S11008, .f32⟩ : BufTy).Contents (Elt Ideal)) :
    Cert.KernelIdeal.Layer.layer x0 x1 x2 x3 = val_main_v12 (F := Ideal) x0 x1 x2 x3 := by
  funext i
  unfold Cert.KernelIdeal.Layer.layer
  refine (shapeCast_apply _ _ i (idx_main_v9 i) (regroup i)).trans ?_
  rw [val_main_v12_apply, val_main_v9_apply, val_main_v8_apply, val_main_v11_apply, val_main_v10_apply, weights_eq]
  unfold linear
  rw [Ideal.addf_def]
  have h0 : (i 0).val < 4 := (i 0).isLt
  have h1 : (i 1).val < 2048 := (i 1).isLt
  have h2 : (i 2).val < 11008 := (i 2).isLt
  refine congrArg₂ (· + ·) (Finset.sum_congr rfl fun k _ => congrArg₂ (· * ·) ?_ ?_) ?_
  · exact congrArg (val_main_v7 (F := Ideal) x0) (funext fun a => match a with | ⟨0, _⟩ => rfl | ⟨1, _⟩ => rfl)
  · exact congrArg (val_main_v6 (F := Ideal) x1 x2) (funext fun a => match a with | ⟨0, _⟩ => rfl | ⟨1, _⟩ => rfl)
  · refine shapeCast_apply x3 _ _ (idx_main_v10 (idx_main_v11 i)) ?_
    rewrite [Shape.rowMajor_val_one, Shape.rowMajor_val_two]
    show (i 2).val = 0 * 11008 + (((i 0).val * 2048 + (i 1).val) * 11008 + (i 2).val) % 11008
    omega

end Cert.ReferenceIdeal.RefValue

end
-- ==== Proof.lean ====
/-
  A dense layer whose weights are codes into a 256-entry codebook: out = x · Wᵀ + bias with W (o, i) = codebook (code (o, i)),
  over x of shape [4, 2048, 4096], 11008 output features and 4096 input features.

  The kernel's program looks the weights up, then runs a tiled product: for each tile of 512 rows by 5504 output
  features it goes through the 4096 input features in eight runs of 512, clearing the tile's block before the first
  run, adding each run's product of the activation tile with the transposed weight tile, and adding the bias after the
  last run; the finished tile is written back once. The reference takes the whole product at once and adds the bias.

  On the extended reals both are the same function of the four arguments, entry by entry: the dot product of an
  activation row with a weight row over the 4096 features, plus the bias. The eight runs are the sum of the first
  512, 1024, …, 4096 terms of that dot product (addition is associative and commutative with unit 0, whatever is
  infinite, so no finiteness of the inputs is used); the tiles fill the matrix; narrowing to bf16 changes no value;
  and regrouping 8192 rows as [4, 2048] rows commutes with adding a bias that depends on the column only.
  The idealized kernel is the kernel's own text read on the extended reals: nothing was rewritten, so there is nothing
  to preserve. Each program terminates without fault and leaves its arguments as they were.
-/
import proofs.«153915_j24704651886628_2_alg».proof.Defs
import proofs.«153915_j24704651886628_2_alg».proof.Proof.Gen.Kernel
import proofs.«153915_j24704651886628_2_alg».proof.Proof.Gen.Kernel.Skeleton
import proofs.«153915_j24704651886628_2_alg».proof.Proof.Gen.Kernel.Launch
import proofs.«153915_j24704651886628_2_alg».proof.Proof.Gen.Kernel.Points
import proofs.«153915_j24704651886628_2_alg».proof.Proof.Gen.Kernel.Frame
import proofs.«153915_j24704651886628_2_alg».proof.Proof.Gen.KernelIdeal
import proofs.«153915_j24704651886628_2_alg».proof.Proof.Gen.KernelIdeal.Skeleton
import proofs.«153915_j24704651886628_2_alg».proof.Proof.Gen.KernelIdeal.Launch
import proofs.«153915_j24704651886628_2_alg».proof.Proof.Gen.KernelIdeal.Points
import proofs.«153915_j24704651886628_2_alg».proof.Proof.Gen.KernelIdeal.Frame
import proofs.«153915_j24704651886628_2_alg».proof.Proof.Gen.ReferenceIdeal
import proofs.«153915_j24704651886628_2_alg».proof.Proof.Gen.Pre_finite_inputs
import proofs.«153915_j24704651886628_2_alg».proof.Proof.Gen.ReferenceIdeal.Run
import proofs.«153915_j24704651886628_2_alg».proof.Proof.Gen.ReferenceIdeal.Read
import proofs.«153915_j24704651886628_2_alg».proof.Proof.Host
import proofs.«153915_j24704651886628_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program, word by word, terminates without fault and keeps its arguments. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- From arguments that agree, both programs end at the layer of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, ← Cert.ReferenceIdeal.RefValue.layer_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
